-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512 : Shape := ⟨2, ![4, 512]⟩
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : IVec S4x512 32) (main_arg1 : FVec F S512x128 .f32) : IVec S_ 1 :=
  let main_v0 : FVec F S512x128 .f32 := Host.absf main_arg1
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S4x512 : Shape := ⟨2, ![4, 512]⟩
abbrev S512x128 : Shape := ⟨2, ![512, 128]⟩
abbrev S4x512x512x128 : Shape := ⟨4, ![4, 512, 512, 128]⟩
abbrev S4x8x512x128 : Shape := ⟨4, ![4, 8, 512, 128]⟩
abbrev S8x512 : Shape := ⟨2, ![8, 512]⟩
abbrev S8x512x384 : Shape := ⟨3, ![8, 512, 384]⟩
abbrev S8x512x1 : Shape := ⟨3, ![8, 512, 1]⟩
abbrev S4096x384 : Shape := ⟨2, ![4096, 384]⟩
abbrev S384x128 : Shape := ⟨2, ![384, 128]⟩
abbrev S4096x128 : Shape := ⟨2, ![4096, 128]⟩
abbrev S8x512x128 : Shape := ⟨3, ![8, 512, 128]⟩
abbrev S1x8x512x128 : Shape := ⟨4, ![1, 8, 512, 128]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .i32⟩
  | .hbm, ⟨1, _⟩ => ⟨S512x128, .f32⟩
  | .hbm, ⟨2, _⟩ => ⟨S4x512x512x128, .f32⟩
  | .local _ .vmem, ⟨0, _⟩ => ⟨S512x128, .f32⟩
  | .local _ .vmem, ⟨1, _⟩ => ⟨S4x8x512x128, .f32⟩
  | .local _ .vmem, ⟨2, _⟩ => ⟨S4x8x512x128, .f32⟩
  | _, _ => ⟨S4x512, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S8x512_d0_w32 : S8x512.Iotas .tc 32 [0]
  iota_S8x512_d1_w32 : S8x512.Iotas .tc 32 [1]
  iota_S8x512x384_d2_w32 : S8x512x384.Iotas .tc 32 [2]
  shapeCasts_S8x512_S8x512x1 : S8x512.ShapeCasts S8x512x1
  broadcasts_S8x512x1_S8x512x384 : S8x512x1.Broadcasts S8x512x384
  natLt_1_32 : 1 < 32
  bitsLt_bf16_f32 : FTy.bits .bf16 < FTy.bits .f32
  shapeCasts_S8x512x384_S4096x384 : S8x512x384.ShapeCasts S4096x384
  inb_S512x128_S384x128_0_0 : ∀ a, (![0, 0] : Fin 2 → Nat) a + S384x128.size a ≤ S512x128.size a
  h_S384x128 : 0 < S384x128.numel
  shapeCasts_S4096x128_S8x512x128 : S4096x128.ShapeCasts S8x512x128
  inb_S4x8x512x128_S1x8x512x128_0_0_0_0 : ∀ a, (![0, 0, 0, 0] : Fin 4 → Nat) a + S1x8x512x128.size a ≤ S4x8x512x128.size a
  h_S1x8x512x128 : 0 < S1x8x512x128.numel
  shapeCasts_S1x8x512x128_S8x512x128 : S1x8x512x128.ShapeCasts S8x512x128
  shapeCasts_S8x512x128_S1x8x512x128 : S8x512x128.ShapeCasts S1x8x512x128
  inb_S4x8x512x128_S1x8x512x128_1_0_0_0 : ∀ a, (![1, 0, 0, 0] : Fin 4 → Nat) a + S1x8x512x128.size a ≤ S4x8x512x128.size a
  inb_S4x8x512x128_S1x8x512x128_2_0_0_0 : ∀ a, (![2, 0, 0, 0] : Fin 4 → Nat) a + S1x8x512x128.size a ≤ S4x8x512x128.size a
  inb_S4x8x512x128_S1x8x512x128_3_0_0_0 : ∀ a, (![3, 0, 0, 0] : Fin 4 → Nat) a + S1x8x512x128.size a ≤ S4x8x512x128.size a
  dot_S4096x384_S384x128_S4096x128_1_0_0_1_n_n_wf : DotDims.WF S4096x384 S384x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x512x128.size a ≤ S4x512x512x128.size a
  hwx0_1 : ∀ i : grid0.Coords, EltTy.bits .f32 = 32 ∨ (Rect.block (s := S4x512x512x128) S4x8x512x128.size (cc0_transform_1 i) (hinb0_1 i)).WholeWords (EltTy.packing .f32)

variable [Facts₀]

def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

abbrev win0_0 : Pipeline.Window sig grid0 :=
  Pipeline.Window.ofSpec (Memref.whole main_arg1) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x8x512x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x512 : Shape := ⟨2, ![4, 512]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S512x512x128 : Shape := ⟨3, ![512, 512, 128]⟩
abbrev S1x512x512x128 : Shape := ⟨4, ![1, 512, 512, 128]⟩
abbrev S4x512x512x128 : Shape := ⟨4, ![4, 512, 512, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x512, .i32⟩
  | .hbm, ⟨1, _⟩ => ⟨S512x128, .f32⟩
  | .hbm, ⟨2, _⟩ => ⟨S512, .i32⟩
  | .hbm, ⟨3, _⟩ => ⟨S512x1, .i32⟩
  | .hbm, ⟨4, _⟩ => ⟨S512, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S512x512x1, .i32⟩
  | .hbm, ⟨28, _⟩ => ⟨S512x512x128, .f32⟩
  | .hbm, ⟨29, _⟩ => ⟨S1x512x512x128, .f32⟩
  | .hbm, ⟨30, _⟩ => ⟨S4x512x512x128, .f32⟩
  | _, _ => ⟨S4x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512x128_S1x512x512x128_1_2_3 : S512x512x128.BroadcastsInDim S1x512x512x128 (![1, 2, 3] : Fin 3 → Fin S1x512x512x128.rank)
  bcast_S1x512x512x128_S4x512x512x128_0_1_2_3 : S1x512x512x128.BroadcastsInDim S4x512x512x128 (![0, 1, 2, 3] : Fin 4 → Fin S4x512x512x128.rank)
  gather_S512x128_S512x512x1_S512x512x128_2_0_n_n_0_2_1128_wf : GatherDims.WF S512x128 S512x512x1 S512x512x128 [2] [0] [] [0] [] 2 ![1, 128]

variable [Facts₀]

def gather_S512x128_S512x512x1_S512x512x128_2_0_n_n_0_2_1128 : GatherDims S512x128 S512x512x1 S512x512x128 where
  offsetDims := [2]
  collapsedSliceDims := [0]
  operandBatchingDims := []
  startIndicesBatchingDims := []
  startIndexMap := [0]
  indexVectorDim := 2
  sliceSizes := ![1, 128]
  wf := gather_S512x128_S512x512x1_S512x512x128_2_0_n_n_0_2_1128_wf

class Facts : Prop extends Facts₀ where

variable [Facts]
-- ==== Proof.RelRow.lean ====
/-
  The relative-position table row, as a word and as a row number, and the one law the two programs meet at.

  Both programs compute, for a query position r and a key position j (both below 512), the word
      rel r j = min 256 (max 0 (128 + (j − r)))          (signed 32-bit arithmetic)
  and read row `rel r j` of the table. Whatever j − r is, the clip leaves a word whose signed value is in
  0 … 256 (`clip_toInt`), so read as a natural it is at most 256 (`relW_toNat_le`): a row of the table's first 257.
  The kernel does not index the table: it multiplies a 0/1 matrix "rel r j = k" (k below 384) into the table's first
  384 rows. Over the extended reals a sum of `[w = k] · f k` over k is `f w` when w is one of the k
  (`onehot_sum`): the other terms are `0 · f k = 0`, also where `f k` is infinite.
-/
import Idealize.ShloMosaic.PureOps.Ideal
import Idealize.ShloMosaic.Lib.ValueIdx

noncomputable section

open scoped BigOperators

namespace Cert.RelPos

open Idealize.ShloMosaic

/-! ## The clipped relative position -/

/-- `min 256 (max 0 (128 + (j − r)))` on signed 32-bit words. -/
def relW (r j : BitVec 32) : BitVec 32 :=
  IntOp.minsi 256#32 (IntOp.maxsi 0#32 (IntOp.addi 128#32 (IntOp.subi j r)))

theorem toInt_zero32 : (0#32 : BitVec 32).toInt = 0 := by decide
theorem toInt_256 : (256#32 : BitVec 32).toInt = 256 := by decide

/-- The signed maximum with zero is not negative. -/
theorem maxsi_zero_toInt (y : BitVec 32) : 0 ≤ (IntOp.maxsi 0#32 y).toInt := by
  unfold IntOp.maxsi
  by_cases h : y.slt 0#32 = true
  · rw [if_pos h, toInt_zero32]
  · rw [if_neg h]
    have h' : ¬ y.toInt < (0#32 : BitVec 32).toInt := by simpa [BitVec.slt] using h
    rw [toInt_zero32] at h'
    omega

/-- The signed minimum of 256 and a non-negative word is between 0 and 256. -/
theorem minsi_256_toInt (z : BitVec 32) (hz : 0 ≤ z.toInt) :
    0 ≤ (IntOp.minsi 256#32 z).toInt ∧ (IntOp.minsi 256#32 z).toInt ≤ 256 := by
  unfold IntOp.minsi
  by_cases h : (256#32 : BitVec 32).slt z = true
  · rw [if_pos h, toInt_256]; omega
  · rw [if_neg h]
    have h' : ¬ (256#32 : BitVec 32).toInt < z.toInt := by simpa [BitVec.slt] using h
    rw [toInt_256] at h'
    omega

/-- The clip's signed value is in 0 … 256, whatever is clipped. -/
theorem relW_toInt (r j : BitVec 32) : 0 ≤ (relW r j).toInt ∧ (relW r j).toInt ≤ 256 :=
  minsi_256_toInt _ (maxsi_zero_toInt _)

/-- A word whose signed value is in 0 … 256 has that value unsigned too. -/
theorem toNat_of_toInt {w : BitVec 32} (h0 : 0 ≤ w.toInt) (h1 : w.toInt ≤ 256) :
    w.toNat ≤ 256 ∧ w.toInt.toNat = w.toNat := by
  have hlt := w.isLt
  rw [BitVec.toInt_eq_toNat_cond] at h0 h1 ⊢
  split_ifs at h0 h1 ⊢ with hc <;> omega

theorem relW_toNat_le (r j : BitVec 32) : (relW r j).toNat ≤ 256 :=
  (toNat_of_toInt (relW_toInt r j).1 (relW_toInt r j).2).1

theorem relW_toInt_toNat (r j : BitVec 32) : (relW r j).toInt.toNat = (relW r j).toNat :=
  (toNat_of_toInt (relW_toInt r j).1 (relW_toInt r j).2).2

/-- The clip is not signed-below zero. -/
theorem relW_not_slt_zero (r j : BitVec 32) : IntOp.cmpi .slt (relW r j) 0#32 = 0#1 := by
  unfold IntOp.cmpi
  have h := (relW_toInt r j).1
  have : (relW r j).slt 0#32 = false := by
    simp only [BitVec.slt, toInt_zero32, decide_eq_false_iff_not]; omega
  rw [this]; rfl

/-- The table row read for query position `r` and key position `j`. -/
def row (r j : Nat) : Fin 512 :=
  ⟨(relW (BitVec.ofNat 32 r) (BitVec.ofNat 32 j)).toNat, by have := relW_toNat_le (BitVec.ofNat 32 r) (BitVec.ofNat 32 j); omega⟩

theorem row_lt (r j : Nat) : (row r j).val < 384 := by
  show (relW _ _).toNat < 384
  have := relW_toNat_le (BitVec.ofNat 32 r) (BitVec.ofNat 32 j); omega

/-- The first query position of a group of 8, times 8, plus the position inside the group, computed on words, is the
    word of the query position. -/
theorem base_add (n p : Nat) :
    IntOp.addi (Scalar.muli (BitVec.ofNat 32 n) 8#32) (BitVec.ofNat 32 p) = BitVec.ofNat 32 (n * 8 + 1 * p) := by
  unfold IntOp.addi Scalar.muli IntOp.muli
  rw [Nat.one_mul, BitVec.ofNat_add, BitVec.ofNat_mul]

/-! ## The function both programs compute -/

/-- Entry (b, r, j, d) of the result is entry (rel r j, d) of the table, for each of the 4 batch entries b. -/
def lookup {α : Type} (pe : (⟨2, ![512, 128]⟩ : Shape).Idx → α) : (⟨4, ![4, 512, 512, 128]⟩ : Shape).Idx → α :=
  fun i => pe (ValueIdx.ix2 (row (i 1).val (i 2).val) (i 3))

/-! ## The 0/1 word of an equality test, as an extended real -/

/-- "w = v" as a one-bit word, widened to 32 bits and converted, is the extended real 1 or 0. -/
theorem onehot_word (w v : BitVec 32) :
    FloatOps.sitofp (F := Ideal) .f32 ((IntOp.cmpi .eq w v).setWidth 32) = if w = v then (1 : EReal) else 0 := by
  show (((((IntOp.cmpi .eq w v).setWidth 32).toInt : ℤ) : ℝ) : EReal) = _
  unfold IntOp.cmpi
  by_cases h : w = v
  · subst h
    rw [if_pos rfl]
    simp
  · rw [if_neg h]
    have : (w == v) = false := by simpa using h
    simp [this]

/-! ## A one-hot sum picks its term -/

/-- Over the extended reals, `∑ k, [w = k] · f k = f w` for a word `w` below the number of terms. -/
theorem onehot_sum (w : BitVec 32) (hw : w.toNat < 384) (f : Fin 384 → EReal) :
    ∑ k : Fin 384, (if w = BitVec.ofNat 32 k.val then (1 : EReal) else 0) * f k = f ⟨w.toNat, hw⟩ := by
  rw [Finset.sum_eq_single (⟨w.toNat, hw⟩ : Fin 384)]
  · rw [if_pos (by simp), one_mul]
  · intro k _ hk
    rw [if_neg, zero_mul]
    intro e
    apply hk
    apply Fin.ext
    have := congrArg BitVec.toNat e
    rw [BitVec.toNat_ofNat, Nat.mod_eq_of_lt (by have := k.isLt; omega)] at this
    exact this.symm
  · intro h; exact absurd (Finset.mem_univ _) h

end Cert.RelPos

end
-- ==== Proof.RefRow.lean ====
/-
  The reference, read at an index: result element (b, r, j, d) is the table's element (rel r j, d).

  The host program builds the [512, 512] array of words `rel r j = min 256 (max 0 (128 + (j − r)))` from two iotas
  (`clip_stage`), adds 512 where the word is negative — nowhere, the clip being non-negative (`index_stage`) —, and
  gathers rows of the table at those words; the gather reads its start word signed and clamps it into 0 … 511, which
  leaves a word of 0 … 256 as it is (`gather_rows`, `RelPos.relW_toInt_toNat`). The two trailing broadcasts copy the
  [512, 512, 128] result to each of the four batch entries.
-/
import proofs.«148081_j40149354283318_2_alg».proof.Proof.Gen.ReferenceIdeal.Read
import proofs.«148081_j40149354283318_2_alg».proof.Proof.RelRow
import Idealize.ShloMosaic.Lib.ValueIdx

noncomputable section

namespace Cert.ReferenceIdeal.RefValue

open Cert.ReferenceIdeal Cert.ReferenceIdeal.Gen Cert.ReferenceIdeal.Read Cert.RelPos
open Idealize.ShloMosaic Idealize.ShloMosaic.ValueIdx

/-! ## The words the gather starts at -/

/-- The clipped array at (r, j) is `rel r j`. -/
theorem clip_stage (i : S512x512.Idx) :
    val_main_v9 (F := Ideal) i = relW (BitVec.ofNat 32 (i 0).val) (BitVec.ofNat 32 (i 1).val) := by
  rw [val_main_v9_apply, val_main_call0_v4_apply, val_main_call0_v3_apply, val_main_c_1_apply,
    val_main_call0_v2_apply, val_main_call0_v1_apply, val_main_call0_v0_apply, val_main_c_0_apply,
    val_main_v8_apply, val_main_v7_apply, val_main_c_apply, val_main_v6_apply,
    val_main_v4_apply, val_main_v3_apply, val_main_v2_apply, val_main_v5_apply, val_main_v1_apply, val_main_v0_apply]
  rfl

/-- Wrapping a negative index by the table's length changes nothing: the clip is never negative. -/
theorem index_stage (i : S512x512.Idx) :
    val_main_v14 (F := Ideal) i = relW (BitVec.ofNat 32 (i 0).val) (BitVec.ofNat 32 (i 1).val) := by
  rw [val_main_v14_apply, val_main_v11_apply, val_main_v10_apply, val_main_c_2_apply, clip_stage,
    relW_not_slt_zero, select_zero]

/-! ## The gather -/

abbrev GD := Cert.ReferenceIdeal.gather_S512x128_S512x512x1_S512x512x128_2_0_n_n_0_2_1128

/-- The start-indices index the gather reads for result index `j`: (j's query position, j's key position, 0). -/
abbrev six (j : S512x512x128.Idx) : S512x512x1.Idx := GD.siIdx j ⟨0, by decide⟩

theorem six_val0 (j : S512x512x128.Idx) : ((six j) 0).val = (j 0).val := rfl
theorem six_val1 (j : S512x512x128.Idx) : ((six j) 1).val = (j 1).val := rfl

/-- The gather reads its operand at (start row, j's last coordinate): axis 0 is collapsed, its start the word for j's
    first two coordinates read signed and clamped into 0 … 511; axis 1 is the offset axis. -/
theorem gather_rows {α : Type} (x : S512x128.Idx → α) (idx : IVec S512x512x1 32) (j : S512x512x128.Idx) :
    Host.gather GD x idx j
      = x (ix2 (⟨min (idx (six j)).toInt.toNat 511, Nat.lt_succ_of_le (Nat.min_le_right _ _)⟩ : Fin 512) (j 2)) := by
  unfold Host.gather; congr 1; funext a; apply Fin.ext
  fin_cases a <;>
    simp [GatherDims.operandIdx, GatherDims.start, GatherDims.offCoord, GatherDims.batchCoord, GD,
      Cert.ReferenceIdeal.gather_S512x128_S512x512x1_S512x512x128_2_0_n_n_0_2_1128, GatherDims.sKept, Shape.kept]
  · rfl
  · exact congrArg (fun a => (j a : ℕ)) (by decide)

/-! ## The result at an index -/

/-- THE REFERENCE'S RESULT at (b, r, j, d) is the table at (rel r j, d). -/
theorem result_apply (pe : FVec Ideal S512x128 .f32) (b : Fin 4) (r j : Fin 512) (d : Fin 128) :
    val_main_v18 (F := Ideal) pe (ix4 b r j d) = pe (ix2 (row r.val j.val) d) := by
  rw [val_main_v18_apply, val_main_v17_apply]
  unfold val_main_v16
  rw [gather_rows]
  refine congrArg pe ?_
  funext a
  apply Fin.ext
  match a with
  | ⟨0, _⟩ =>
    show min (val_main_v15 (F := Ideal) (six _)).toInt.toNat 511 = (row r.val j.val).val
    rw [val_main_v15_apply, index_stage]
    show min (relW (BitVec.ofNat 32 r.val) (BitVec.ofNat 32 j.val)).toInt.toNat 511 = (relW (BitVec.ofNat 32 r.val) (BitVec.ofNat 32 j.val)).toNat
    rw [relW_toInt_toNat]
    have := relW_toNat_le (BitVec.ofNat 32 r.val) (BitVec.ofNat 32 j.val)
    omega
  | ⟨1, _⟩ => rfl

end Cert.ReferenceIdeal.RefValue

end
-- ==== Proof.RelPayload.lean ====
/-
  The kernel body's value, read at an index.

  At grid point i the body builds, for its 8 query positions p and all 512 key positions j, the word
      w p j = min 256 (max 0 (128 + (j − (8·i + p))))          (`relVec_apply`: this is `RelPos.relW`)
  then the 0/1 matrix [w p j = k] over k below 384, flattened to [4096, 384], and multiplies it into the first 384
  rows of the table (a change of float format is the identity on extended reals, and the accumulator is the zero splat).
  Element (p, j, d) of the product is therefore `∑ k, [w p j = k] · table (k, d)`, which is `table (w p j, d)`
  (`RelPos.onehot_sum`): `body_apply`.
-/
import proofs.«148081_j40149354283318_2_alg».proof.Proof.Gen.KernelIdeal.Skeleton
import proofs.«148081_j40149354283318_2_alg».proof.Proof.RelRow
import Idealize.ShloMosaic.Lib.ValueIdx
import Idealize.ShloMosaic.Lib.Pipeline.Value
import Idealize.ShloMosaic.PureOps.Ideal.Laws

noncomputable section

open scoped BigOperators

namespace Cert.KernelIdeal.RelValue

open Cert.KernelIdeal Cert.KernelIdeal.Gen Cert.RelPos
open Idealize.ShloMosaic Idealize.ShloMosaic.ValueIdx

/-! ## The layout operations of the body, read at an index -/

section Layout
variable {α : Type}

/-- [4096, 128] viewed [8, 512, 128]: element (p, j, d) is element (512·p + j, d). -/
theorem rows_split (M : S4096x128.Idx → α) (h : S4096x128.ShapeCasts S8x512x128) (p : Fin 8) (j : Fin 512) (d : Fin 128) :
    shapeCast S8x512x128 M h (ix3 p j d) = M (ix2 (⟨p.val * 512 + j.val, by omega⟩ : Fin 4096) d) :=
  shapeCast_apply M h _ _ (by rw [Shape.rowMajor_val_two, Shape.rowMajor_val_three]; rfl)

/-- [8, 512, 384] viewed [4096, 384]: element (512·p + j, k) is element (p, j, k). -/
theorem rows_merge (N : S8x512x384.Idx → α) (h : S8x512x384.ShapeCasts S4096x384) (p : Fin 8) (j : Fin 512) (k : Fin 384) :
    shapeCast S4096x384 N h (ix2 (⟨p.val * 512 + j.val, by omega⟩ : Fin 4096) k) = N (ix3 p j k) :=
  shapeCast_apply N h _ _ (by rw [Shape.rowMajor_val_two, Shape.rowMajor_val_three]; rfl)

/-- [8, 512] given a trailing unit axis and repeated along it 384 times: element (p, j, k) is element (p, j). -/
theorem column_repeat (v : S8x512.Idx → α) (h1 : S8x512.ShapeCasts S8x512x1) (h2 : S8x512x1.Broadcasts S8x512x384)
    (p : Fin 8) (j : Fin 512) (k : Fin 384) :
    broadcastTo S8x512x384 (shapeCast S8x512x1 v h1) h2 (ix3 p j k) = v (ix2 p j) := by
  rw [broadcastTo_apply _ h2 (ix3 p j k) (ix3 p j (0 : Fin 1)) (fun a => by
    match a with
    | ⟨0, _⟩ => rfl
    | ⟨1, _⟩ => rfl
    | ⟨2, _⟩ => rfl)]
  exact shapeCast_apply v h1 _ _ (by
    rw [Shape.rowMajor_val_two, Shape.rowMajor_val_three]
    show p.val * 512 + j.val = (p.val * 512 + j.val) * 1 + 0
    omega)

end Layout

/-! ## The clipped words of a grid point -/

/-- The body's word array at grid point `i`: `min 256 (max 0 (128 + (j − (8·i + p))))` at (p, j). -/
def relVec (i : grid0.Coords) : IVec S8x512 32 :=
  minsi (broadcast S8x512 256#32) (maxsi (broadcast S8x512 0#32) (addi (broadcast S8x512 128#32)
    (subi (iota .tc S8x512 32 [1] Gen.iota_S8x512_d1_w32)
      (addi (broadcast S8x512 (Scalar.muli (BitVec.ofNat 32 (i 0).val) 8#32)) (iota .tc S8x512 32 [0] Gen.iota_S8x512_d0_w32)))))

/-- The first of the 8 query positions of grid point `i`, as the body computes it. -/
def base (i : grid0.Coords) : BitVec 32 := Scalar.muli (BitVec.ofNat 32 (i 0).val) 8#32

theorem relVec_apply (i : grid0.Coords) (p : Fin 8) (j : Fin 512) :
    relVec i (ix2 p j) = relW (IntOp.addi (base i) (BitVec.ofNat 32 p.val)) (BitVec.ofNat 32 j.val) := by
  unfold relVec relW base
  simp only [minsi, maxsi, addi, subi, broadcast]
  rw [iota_single_apply, iota_single_apply]

/-- The table row the body's product selects at (p, j). -/
def rowK (i : grid0.Coords) (p : Fin 8) (j : Fin 512) : Fin 384 :=
  ⟨(relW (IntOp.addi (base i) (BitVec.ofNat 32 p.val)) (BitVec.ofNat 32 j.val)).toNat, by
    have := relW_toNat_le (IntOp.addi (base i) (BitVec.ofNat 32 p.val)) (BitVec.ofNat 32 j.val); omega⟩

/-! ## The product's operand indices -/

abbrev DD := Cert.KernelIdeal.dot_S4096x384_S384x128_S4096x128_1_0_0_1_n_n

theorem lhs_0 (J : S4096x128.Idx) (k : DD.contr.Idx) : (DD.lhsIdx J k 0 : ℕ) = J 0 := by
  simp [DotDims.lhsIdx, DD, Cert.KernelIdeal.dot_S4096x384_S384x128_S4096x128_1_0_0_1_n_n]; rfl
theorem lhs_1 (J : S4096x128.Idx) (k : DD.contr.Idx) : (DD.lhsIdx J k 1 : ℕ) = k ⟨0, by decide⟩ := by
  simp [DotDims.lhsIdx, DD, Cert.KernelIdeal.dot_S4096x384_S384x128_S4096x128_1_0_0_1_n_n]; rfl
theorem rhs_0 (J : S4096x128.Idx) (k : DD.contr.Idx) : (DD.rhsIdx J k 0 : ℕ) = k ⟨0, by decide⟩ := by
  simp [DotDims.rhsIdx, DD, Cert.KernelIdeal.dot_S4096x384_S384x128_S4096x128_1_0_0_1_n_n]; rfl
theorem rhs_1 (J : S4096x128.Idx) (k : DD.contr.Idx) : (DD.rhsIdx J k 1 : ℕ) = J 1 := by
  simp [DotDims.rhsIdx, DD, Cert.KernelIdeal.dot_S4096x384_S384x128_S4096x128_1_0_0_1_n_n]; rfl

/-- The contraction index is its one coordinate, below 384. -/
abbrev ce : DD.contr.Idx ≃ Fin 384 := contrEquiv1 DD 384 rfl rfl

theorem lhs_at (q : Fin 4096) (d : Fin 128) (k : Fin 384) : DD.lhsIdx (ix2 q d) (ce.symm k) = ix2 q k := by
  funext a; apply Fin.ext
  match a with
  | ⟨0, _⟩ => exact lhs_0 _ _
  | ⟨1, _⟩ => exact (lhs_1 _ _).trans (contrEquiv1_symm_val DD 384 rfl rfl k)

theorem rhs_at (q : Fin 4096) (d : Fin 128) (k : Fin 384) : DD.rhsIdx (ix2 q d) (ce.symm k) = ix2 k d := by
  funext a; apply Fin.ext
  match a with
  | ⟨0, _⟩ => exact (rhs_0 _ _).trans (contrEquiv1_symm_val DD 384 rfl rfl k)
  | ⟨1, _⟩ => exact rhs_1 _ _

/-! ## The body's value -/

/-- THE BODY'S VALUE at (p, j, d): the loaded table rows at (the clipped word of (p, j), d). -/
theorem body_apply (i : grid0.Coords) (v20 : Vec Ideal S384x128 .f32) (p : Fin 8) (j : Fin 512) (d : Fin 128) :
    k0_pay2 (F := Ideal) i v20 (ix3 p j d) = v20 (ix2 (rowK i p j) d) := by
  unfold k0_pay2
  dsimp only
  rw [rows_split]
  refine (Ideal.matmul_constant_zero_apply DD none _ _ _).trans ?_
  rw [← Equiv.sum_comp ce.symm]
  refine Eq.trans (Finset.sum_congr rfl fun k _ => ?_)
    (onehot_sum (relW (IntOp.addi (base i) (BitVec.ofNat 32 p.val)) (BitVec.ofNat 32 j.val)) (rowK i p j).isLt
      (fun k => v20 (ix2 k d)))
  rw [lhs_at, rhs_at, rows_merge]
  refine congrArg₂ (· * ·) ?_ rfl
  show FloatOps.sitofp (F := Ideal) .f32 ((IntOp.cmpi .eq _ _).setWidth 32) = _
  rw [column_repeat, iota_single_apply]
  exact (congrArg (fun w => FloatOps.sitofp (F := Ideal) .f32 ((IntOp.cmpi .eq w (BitVec.ofNat 32 k.val)).setWidth 32))
    (relVec_apply i p j)).trans (onehot_word _ _)

end Cert.KernelIdeal.RelValue

end
-- ==== Proof.RelArray.lean ====
/-
  The array the kernel leaves: `RelPos.lookup` of the table.

  Grid point t (of 64) stages the whole table (block index (0, 0) of one [512, 128] block) and writes back block
  (0, t, 0, 0) of [4, 8, 512, 128]: the 8 query positions 8·t … 8·t + 7, all key positions, all 4 batch entries.
  The body stores ONE [8, 512, 128] value four times, once per batch entry; whichever of the four stores an element of
  the block comes from, it holds that value at the element's last three coordinates (`out_apply`, over
  `View.canon_apply_of_pieces`), which is the table at (the clipped word of (p, j), d) (`RelValue.body_apply`). The word
  the body computes from the grid position, 8·t + p on 32-bit words, is the word of the query position 8·t + p
  (`RelPos.base_add`), so point t's block is block t of `lookup` (`flushed_eq`); the 64 blocks tile the array (`cover`).
-/
import proofs.«148081_j40149354283318_2_alg».proof.Proof.KernelIdealFrame
import proofs.«148081_j40149354283318_2_alg».proof.Proof.RelPayload
import Idealize.ShloMosaic.Lib.Pipeline.Value
import Idealize.ShloMosaic.Lib.ValueLayout

set_option maxRecDepth 16384

noncomputable section

namespace Cert.KernelIdeal.RelArray

open Cert.KernelIdeal Cert.KernelIdeal.Gen Cert.KernelIdeal.GenP Cert.KernelIdeal.RelValue Cert.RelPos
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The output block the body leaves -/

/-- One batch entry's store: the [8, 512, 128] value given a leading unit axis and stored at batch offset `off 0` puts
    element (p, j, d) of the value at the block's element (off 0, p, j, d). -/
theorem tile_piece {α : Type} (W : S8x512x128.Idx → α) (h : S8x512x128.ShapeCasts S1x8x512x128) (off : Fin 4 → Nat)
    (hoff : off 1 = 0 ∧ off 2 = 0 ∧ off 3 = 0) (inb : ∀ a, off a + S1x8x512x128.size a ≤ S4x8x512x128.size a)
    (x : S1x8x512x128.Idx) :
    shapeCast S1x8x512x128 W h x
      = (fun y : S4x8x512x128.Idx => W (ix3 (y 1) (y 2) (y 3))) ((Rect.unit (s := S4x8x512x128) off S1x8x512x128.size inb).emb x) := by
  obtain ⟨u, p, j, d, rfl⟩ : ∃ (u : Fin 1) (p : Fin 8) (j : Fin 512) (d : Fin 128), x = ix4 u p j d :=
    ⟨x 0, x 1, x 2, x 3, eq_ix4 x⟩
  rw [shapeCast_abc_1abc_apply]
  refine congrArg W ?_
  funext a
  apply Fin.ext
  match a with
  | ⟨0, _⟩ => show p.val = off 1 + 1 * p.val; rw [hoff.1]; omega
  | ⟨1, _⟩ => show j.val = off 2 + 1 * j.val; rw [hoff.2.1]; omega
  | ⟨2, _⟩ => show d.val = off 3 + 1 * d.val; rw [hoff.2.2]; omega

/-- WHAT THE BODY LEAVES in the output block at grid point `i`, from the staged table `x0`: at (b, p, j, d) the table at
    (the clipped word of (p, j), d), for every batch entry b. -/
theorem out_apply (i : grid0.Coords) (x0 : Vec Ideal S512x128 .f32) (b : Fin 4) (p : Fin 8) (j : Fin 512) (d : Fin 128) :
    out0_1 i x0 (ix4 b p j d) = x0 (ix2 (⟨(rowK i p j).val, by have := (rowK i p j).isLt; omega⟩ : Fin 512) d) := by
  unfold out0_1
  refine (View.canon_apply_of_pieces
    (fun y : S4x8x512x128.Idx => k0_pay2 (F := Ideal) i (View.ld x0 r0_0) (ix3 (y 1) (y 2) (y 3))) _ ?_ (ix4 b p j d)
    (cover0_1 _ _ _ _ (ix4 b p j d))).trans ?_
  · intro q hq x
    simp only [List.mem_cons, List.mem_nil_iff, or_false] at hq
    rcases hq with rfl | rfl | rfl | rfl
    · exact tile_piece (k0_pay2 (F := Ideal) i (View.ld x0 r0_0)) Gen.shapeCasts_S8x512x128_S1x8x512x128 ![3, 0, 0, 0] ⟨rfl, rfl, rfl⟩ Gen.inb_S4x8x512x128_S1x8x512x128_3_0_0_0 x
    · exact tile_piece (k0_pay2 (F := Ideal) i (View.ld x0 r0_0)) Gen.shapeCasts_S8x512x128_S1x8x512x128 ![2, 0, 0, 0] ⟨rfl, rfl, rfl⟩ Gen.inb_S4x8x512x128_S1x8x512x128_2_0_0_0 x
    · exact tile_piece (k0_pay2 (F := Ideal) i (View.ld x0 r0_0)) Gen.shapeCasts_S8x512x128_S1x8x512x128 ![1, 0, 0, 0] ⟨rfl, rfl, rfl⟩ Gen.inb_S4x8x512x128_S1x8x512x128_1_0_0_0 x
    · exact tile_piece (k0_pay2 (F := Ideal) i (View.ld x0 r0_0)) Gen.shapeCasts_S8x512x128_S1x8x512x128 ![0, 0, 0, 0] ⟨rfl, rfl, rfl⟩ Gen.inb_S4x8x512x128_S1x8x512x128_0_0_0_0 x
  · show k0_pay2 (F := Ideal) i (View.ld x0 r0_0) (ix3 p j d) = _
    rw [body_apply]
    show x0 (r0_0.idx (ix2 (rowK i p j) d)) = _
    refine congrArg x0 ?_
    funext a
    apply Fin.ext
    match a with
    | ⟨0, _⟩ => show 0 + 1 * (rowK i p j).val = (rowK i p j).val; omega
    | ⟨1, _⟩ => show 0 + 1 * d.val = d.val; omega

/-! ## The windows' blocks on the grid -/

/-- The printed index maps, decided over the 64 grid points: the table's window stays at block (0, 0); the output's is
    at block (0, t, 0, 0); and the body's grid coordinate is the point's number. -/
theorem idx_facts : ∀ t : Fin cfg0.N, win0_0.index t (0 : Fin 2) = 0 ∧ win0_0.index t (1 : Fin 2) = 0
    ∧ win0_1.index t (0 : Fin 4) = 0 ∧ win0_1.index t (1 : Fin 4) = t.val
    ∧ win0_1.index t (2 : Fin 4) = 0 ∧ win0_1.index t (3 : Fin 4) = 0
    ∧ (grid0.coords t 0).val = t.val :=
  (by decide +kernel : ∀ t : Fin grid0.N, _)

/-- Every group of 8 query positions is some point's block. -/
theorem idx_onto : ∀ q : Fin 64, ∃ t : Fin cfg0.N, win0_1.index t = ![0, q.val, 0, 0] :=
  (by decide +kernel : ∀ q : Fin 64, ∃ t : Fin grid0.N, win0_1.index t = ![0, q.val, 0, 0])

/-- The staged table block is the whole table. -/
theorem table_block (c : Dev nD) (t : Fin cfg0.N) (k : Fin 512) (d : Fin 128) :
    iblk m c 0 t (ix2 k d) = V m c main_arg1 (ix2 k d) := by
  obtain ⟨e0, e1, -⟩ := idx_facts t
  show V m c main_arg1 (((cfg0.win 0).blk t).view.emb (ix2 k d)) = V m c main_arg1 (ix2 k d)
  refine congrArg (V m c main_arg1) ?_
  funext a
  apply Fin.ext
  match a with
  | ⟨0, _⟩ => show win0_0.index t (0 : Fin 2) * 512 + 1 * k.val = k.val; omega
  | ⟨1, _⟩ => show win0_0.index t (1 : Fin 2) * 128 + 1 * d.val = d.val; omega

/-! ## Point t writes back block t of `lookup` -/

theorem flushed_eq (c : Dev nD) (t : Fin cfg0.N) :
    (dats m 0 c).flushed 1 t = ((cfg0.win 1).blk t).view.read (Elt Ideal) (lookup (V m c main_arg1)) := by
  show (cfg0.win 1).cut (grid0.coords t) ((dats m 0 c).after 1 t) = _
  rw [after0_1]
  funext y
  obtain ⟨b, p, j, d, rfl⟩ : ∃ (b : Fin 4) (p : Fin 8) (j : Fin 512) (d : Fin 128), y = ix4 b p j d :=
    ⟨y 0, y 1, y 2, y 3, eq_ix4 y⟩
  show out0_1 (grid0.coords t) (iblk m c 0 t) (ix4 b p j d)
    = lookup (V m c main_arg1) (((cfg0.win 1).blk t).view.emb (ix4 b p j d))
  rw [out_apply, table_block]
  obtain ⟨-, -, f0, f1, f2, f3, fg⟩ := idx_facts t
  unfold lookup
  refine congrArg (V m c main_arg1) ?_
  funext a
  apply Fin.ext
  match a with
  | ⟨0, _⟩ =>
    show (relW (IntOp.addi (base (grid0.coords t)) (BitVec.ofNat 32 p.val)) (BitVec.ofNat 32 j.val)).toNat
      = (relW (BitVec.ofNat 32 (win0_1.index t (1 : Fin 4) * 8 + 1 * p.val)) (BitVec.ofNat 32 (win0_1.index t (2 : Fin 4) * 512 + 1 * j.val))).toNat
    unfold base
    rw [base_add, fg, f1, f2, Nat.zero_mul, Nat.zero_add, Nat.one_mul j.val]
  | ⟨1, _⟩ => show d.val = win0_1.index t (3 : Fin 4) * 128 + 1 * d.val; omega

/-! ## The blocks tile the array -/

theorem mem_blk (t : Fin cfg0.N) (i : S4x512x512x128.Idx) :
    i ∈ ((cfg0.win 1).blk t).view.set ↔ ∀ a : Fin 4, win0_1.index t a * S4x8x512x128.size a ≤ (i a).val
      ∧ (i a).val < win0_1.index t a * S4x8x512x128.size a + S4x8x512x128.size a := by
  show i ∈ ((View.whole main_v0).slice (win0_1.rect t)).set ↔ _
  rw [View.set_slice_whole, Rect.mem_set_unit]
  exact Iff.rfl

/-- Query position r is in the block of point r / 8. -/
theorem cover (i : S4x512x512x128.Idx) :
    ∃ t : Fin cfg0.N, (cfg0.win 1).flush t = true ∧ i ∈ ((cfg0.win 1).blk t).view.set := by
  have h0 : (i 0).val < 4 := (i 0).isLt
  have h1 : (i 1).val < 512 := (i 1).isLt
  have h2 : (i 2).val < 512 := (i 2).isLt
  have h3 : (i 3).val < 128 := (i 3).isLt
  obtain ⟨t, ht⟩ := idx_onto ⟨(i 1).val / 8, by omega⟩
  have q0 : win0_1.index t (0 : Fin 4) = 0 := congrFun ht 0
  have q1 : win0_1.index t (1 : Fin 4) = (i 1).val / 8 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 4 ≤ (i 0).val ∧ (i 0).val < win0_1.index t (0 : Fin 4) * 4 + 4; omega
  | ⟨1, _⟩ => show win0_1.index t (1 : Fin 4) * 8 ≤ (i 1).val ∧ (i 1).val < win0_1.index t (1 : Fin 4) * 8 + 8; omega
  | ⟨2, _⟩ => show win0_1.index t (2 : Fin 4) * 512 ≤ (i 2).val ∧ (i 2).val < win0_1.index t (2 : Fin 4) * 512 + 512; omega
  | ⟨3, _⟩ => show win0_1.index t (3 : Fin 4) * 128 ≤ (i 3).val ∧ (i 3).val < win0_1.index t (3 : Fin 4) * 128 + 128; omega

/-! ## The run -/

/-- THE ARRAY after the run is `lookup` of the table as launched. -/
theorem final (c : Dev nD) : (dats m 0 c).arrAt 1 cfg0.N = lookup (m ((c : Thread nD τ).loc main_arg1)) :=
  (dats m 0 c).arrAt_eq_of_cover 1 (lookup (V m c main_arg1)) (fun t _ => flushed_eq m c t) cover

/-- Every weakly fair execution of the kernel's program terminates with the result array at `lookup` of the table and the
    two argument arrays unchanged. -/
theorem run : θ_run defs (onTc (τ := τ) (main (F := Ideal))) ⟨m, fun _ => 0, ρ⟩ fun r => ∀ c : Dev nD,
      r.2.mem ((c : Thread nD τ).loc main_v0) = lookup (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c)))⟩)
    (run_main m ρ)

end Cert.KernelIdeal.RelArray

end
-- ==== Proof.lean ====
/-
  The kernel and its reference compute one function of the table.

  The claim: a relative-position lookup. For query position r, key position j (both below 512) and feature d (below 128)
  the result at (b, r, j, d) — the same for each of 4 batch entries b — is the table `pe` at row
      rel r j = min 256 (max 0 (128 + (j − r)))
  and column d. The reference gathers those rows (Proof/RefRow.lean). The kernel, 8 query positions per grid point, multiplies
  the 0/1 matrix [rel r j = k] (k below 384) into the table's first 384 rows; over the extended reals that product is
  `∑ k, [rel r j = k] · pe (k, d) = pe (rel r j, d)` because the other 383 terms are `0 · x = 0` for every extended real x
  and `rel r j` is at most 256 (Proof/RelRow.lean, Proof/RelPayload.lean, Proof/RelArray.lean). The first argument, an
  integer array, is read by neither program; no float constant occurs but the product's zero accumulator; the law needs
  no finiteness, so the precondition is not opened.

  The three frames: the two kernel programs' by the frame certificates (Proof/KernelFrame.lean, Proof/KernelIdealFrame.lean),
  the reference's by its run with the result dropped. The idealization rewrote nothing, so `preserves` is `True`.
-/
import proofs.«148081_j40149354283318_2_alg».proof.Defs
import proofs.«148081_j40149354283318_2_alg».proof.Proof.Gen.Kernel
import proofs.«148081_j40149354283318_2_alg».proof.Proof.Gen.Kernel.Skeleton
import proofs.«148081_j40149354283318_2_alg».proof.Proof.Gen.Kernel.Launch
import proofs.«148081_j40149354283318_2_alg».proof.Proof.Gen.Kernel.Points
import proofs.«148081_j40149354283318_2_alg».proof.Proof.KernelFrame
import proofs.«148081_j40149354283318_2_alg».proof.Proof.Gen.KernelIdeal
import proofs.«148081_j40149354283318_2_alg».proof.Proof.Gen.KernelIdeal.Skeleton
import proofs.«148081_j40149354283318_2_alg».proof.Proof.Gen.KernelIdeal.Launch
import proofs.«148081_j40149354283318_2_alg».proof.Proof.Gen.KernelIdeal.Points
import proofs.«148081_j40149354283318_2_alg».proof.Proof.KernelIdealFrame
import proofs.«148081_j40149354283318_2_alg».proof.Proof.Gen.ReferenceIdeal
import proofs.«148081_j40149354283318_2_alg».proof.Proof.Gen.ReferenceIdeal.Run
import proofs.«148081_j40149354283318_2_alg».proof.Proof.Gen.ReferenceIdeal.Read
import proofs.«148081_j40149354283318_2_alg».proof.Proof.Gen.Pre_finite_inputs
import proofs.«148081_j40149354283318_2_alg».proof.Proof.RelRow
import proofs.«148081_j40149354283318_2_alg».proof.Proof.RefRow
import proofs.«148081_j40149354283318_2_alg».proof.Proof.RelArray
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_kernel : Cert.frame_Kernel := fun m ρ _ => Cert.Kernel.GenP.frame m ρ

/-- So does the kernel read over the extended reals. -/
theorem frame_kernel_ideal : Cert.frame_KernelIdeal := fun m ρ _ => Cert.KernelIdeal.GenP.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the arguments both programs end with the result array at `lookup` of the table: the
    kernel by its blocks (`RelArray.run`), the reference index by index (`RefValue.result_apply`). -/
theorem algebraic : Cert.algebraic_KernelIdeal_ReferenceIdeal := by
  intro m ρ m' ρ' _ hagree
  refine ⟨_, Cert.KernelIdeal.RelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).2]
  funext i
  obtain ⟨b, r, j, d, rfl⟩ : ∃ (b : Fin 4) (r : Fin 512) (j : Fin 512) (d : Fin 128), i = ix4 b r j d :=
    ⟨i 0, i 1, i 2, i 3, eq_ix4 i⟩
  exact Cert.ReferenceIdeal.RefValue.result_apply _ b r j d

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
